-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S1x128 .f32) (main_arg6 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x1 : Shape := ⟨2, ![128, 1]⟩
abbrev S1x1 : Shape := ⟨2, ![1, 1]⟩
abbrev S8000x128 : Shape := ⟨2, ![8000, 128]⟩
abbrev S8000x1 : Shape := ⟨2, ![8000, 1]⟩
abbrev S5000x128 : Shape := ⟨2, ![5000, 128]⟩

abbrev nBuf : Space → Nat
  | .hbm => 38
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S128x128, .f32⟩
  | .hbm, ⟨31, _⟩ => ⟨S1x128, .f32⟩
  | .hbm, ⟨32, _⟩ => ⟨S128x1, .f32⟩
  | .hbm, ⟨33, _⟩ => ⟨S1x1, .f32⟩
  | .hbm, ⟨34, _⟩ => ⟨S1600000x128, .f32⟩
  | .hbm, ⟨35, _⟩ => ⟨S1600000x1, .f32⟩
  | .hbm, ⟨36, _⟩ => ⟨S1600000, .f32⟩
  | .hbm, ⟨37, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S8000x128, .f32⟩
  | .local _ .vmem, ⟨7, _⟩ => ⟨S8000x128, .f32⟩
  | .local _ .vmem, ⟨8, _⟩ => ⟨S8000x1, .f32⟩
  | .local _ .vmem, ⟨9, _⟩ => ⟨S8000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  shapeCasts_S128_S1x128 : S128.ShapeCasts S1x128
  transposes_S1x128_S128x1_1_0 : S1x128.Transposes [1, 0] S128x1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1600000x128.size a
  hwx0_5 : ∀ i : grid0.Coords, EltTy.bits .f32 = 32 ∨ (Rect.block (s := S1600000x128) S8000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x1.size a ≤ S1600000x1.size a
  hwx0_6 : ∀ i : grid0.Coords, EltTy.bits .f32 = 32 ∨ (Rect.block (s := S1600000x1) S8000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S8000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S8000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S128x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S128x1, .f32⟩
  | .hbm, ⟨44, _⟩ => ⟨S1600000x1, .f32⟩
  | .hbm, ⟨45, _⟩ => ⟨S1x1, .f32⟩
  | .hbm, ⟨46, _⟩ => ⟨S1600000x1, .f32⟩
  | .hbm, ⟨47, _⟩ => ⟨S1600000x1, .f32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .f32⟩
  | .hbm, ⟨52, _⟩ => ⟨S1600000, .f32⟩
  | .hbm, ⟨53, _⟩ => ⟨S1600000, .f32⟩
  | .hbm, ⟨54, _⟩ => ⟨S_, .f32⟩
  | .hbm, ⟨55, _⟩ => ⟨S1600000, .f32⟩
  | .hbm, ⟨56, _⟩ => ⟨S1600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  gather_S50000x128_S1600000x1_S1600000x128_1_0_n_n_0_1_1128_wf : GatherDims.WF S50000x128 S1600000x1 S1600000x128 [1] [0] [] [0] [] 1 ![1, 128]
  dot_S1600000x128_S128x128_S1600000x128_1_0_0_1_n_n_wf : DotDims.WF S1600000x128 S128x128 S1600000x128 [1] [0] [0] [1] [] []
  dot_S50000x128_S128x128_S50000x128_1_0_0_1_n_n_wf : DotDims.WF S50000x128 S128x128 S50000x128 [1] [0] [0] [1] [] []
  dot_S1600000x128_S128x1_S1600000x1_1_0_0_1_n_n_wf : DotDims.WF S1600000x128 S128x1 S1600000x1 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.KernelRun.lean ====
/-
  The idealized kernel program's run with every buffer named.  The program is two grid launches among three stretches of
  host operations; its buffers' contents at the four boundaries are the fold `W0 … W4` of the generated frame.  Every
  weakly fair execution terminates, and in its final state each unscoped buffer of a core holds what the last fold `W4`
  says.  The three results and the arguments are then read off that one statement.
-/
import proofs.«103086_j31825707664029_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends
    at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Named

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Payload.lean ====
/-
  What the two kernel bodies compute from the blocks they load, read at one entry, over the extended reals.

  The edge kernel's first store holds, at `(p, q)`, `Σ_k x(p, k) · wt(k, q) + b(0, q)` (a matrix product into a zero
  accumulator, the one bias row broadcast over the block's rows; the roundings to half precision are the identity on the
  extended reals).  Its second store holds, at `(p, 0)`, the logistic function of `Σ_j y(p, j) · ws(j, 0) + s(0, 0)`, `y` the
  first store's value.  The node kernel's store is the first formula with every entry of `x` doubled first.
-/
import proofs.«103086_j31825707664029_1_alg».proof.Proof.Gen.KernelIdeal.Skeleton
import proofs.«103086_j31825707664029_1_alg».proof.Proof.LibMatmulNN
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The transformed features of a block of merged edge features. -/
theorem feat_apply (x0 : Vec Ideal S8000x128 .f32) (x1 : Vec Ideal S128x128 .f32) (x2 : Vec Ideal S1x128 .f32)
    (p : Fin 8000) (q : Fin 128) :
    k0_pay1 (F := Ideal) x0 x1 x2 (ix2 p q)
      = (∑ k : Fin 128, x0 (ix2 p k) * x1 (ix2 k q)) + x2 (ix2 (0 : Fin 1) q) := by
  unfold k0_pay1
  simp only [shapeCast_self]
  refine congrArg₂ (· + ·) ?_ ?_
  · exact Cert.LibMatmulNN.matmul_nn_apply dot_S8000x128_S128x128_S8000x128_1_0_0_1_n_n rfl rfl rfl rfl rfl rfl none _ _ p q
  · exact broadcastTo_1b_ab_apply x2 _ p q

/-- The score of each row of the block. -/
theorem score_apply (x0 : Vec Ideal S8000x128 .f32) (x1 : Vec Ideal S128x128 .f32) (x2 : Vec Ideal S1x128 .f32)
    (x3 : Vec Ideal S128x1 .f32) (x4 : Vec Ideal S1x1 .f32) (p : Fin 8000) (u : Fin 1) :
    k0_pay2 (F := Ideal) x0 x1 x2 x3 x4 (ix2 p u)
      = Ideal.logistic ((∑ j : Fin 128, k0_pay1 (F := Ideal) x0 x1 x2 (ix2 p j) * x3 (ix2 j (0 : Fin 1)))
          + x4 (ix2 (0 : Fin 1) (0 : Fin 1))) := by
  obtain rfl : u = 0 := Subsingleton.elim _ _
  unfold k0_pay2
  simp only [shapeCast_self]
  refine congrArg Ideal.logistic (congrArg₂ (· + ·) ?_ ?_)
  · exact Cert.LibMatmulNN.matmul_nn_apply dot_S8000x128_S128x1_S8000x1_1_0_0_1_n_n rfl rfl rfl rfl rfl rfl none _ _ p (0 : Fin 1)
  · exact broadcastTo_1b_ab_apply x4 _ p (0 : Fin 1)

/-- The transformed features of a block of node features, each entry doubled first. -/
theorem self_apply (x0 : Vec Ideal S5000x128 .f32) (x1 : Vec Ideal S128x128 .f32) (x2 : Vec Ideal S1x128 .f32)
    (p : Fin 5000) (q : Fin 128) :
    k1_pay1 (F := Ideal) x0 x1 x2 (ix2 p q)
      = (∑ k : Fin 128, (Ideal.ofBits .f32 0x40000000#32 * x0 (ix2 p k)) * x1 (ix2 k q)) + x2 (ix2 (0 : Fin 1) q) := by
  unfold k1_pay1
  simp only [shapeCast_self]
  refine congrArg₂ (· + ·) ?_ ?_
  · exact Cert.LibMatmulNN.matmul_nn_apply dot_S5000x128_S128x128_S5000x128_1_0_0_1_n_n rfl rfl rfl rfl rfl rfl none _ _ p q
  · exact broadcastTo_1b_ab_apply x2 _ p q

end Cert.KernelIdeal.Payload

end
-- ==== Proof.Spec.lean ====
/-
  The mathematics of the edge-pooling layer, stated once over the extended reals.

  A linear layer takes a matrix `X` of `R` rows of 128 features, a weight matrix given transposed, `Wt(k, j)`, and a bias
  `b(j)`: row `r` becomes `Σ_k X(r, k) · Wt(k, j) + b(j)`.  The layer is applied to the merged edge features and to the doubled
  node features.  The score of a row of transformed features `Y` is the logistic function of
  `Σ_j Y(r, j) · ws(j, 0) + s`.
-/
import Idealize.ShloMosaic.Lib.ValueIdx
import Idealize.ShloMosaic.PureOps.Ideal

noncomputable section

open scoped BigOperators

namespace Cert.EdgePool

open Idealize.ShloMosaic Idealize.ShloMosaic.ValueIdx

/-- The linear layer `X · Wt + b`, entry by entry. -/
def affine {R : Nat} (X : (⟨2, ![R, 128]⟩ : Shape).Idx → EReal) (Wt : (⟨2, ![128, 128]⟩ : Shape).Idx → EReal)
    (b : Fin 128 → EReal) : (⟨2, ![R, 128]⟩ : Shape).Idx → EReal :=
  fun i => (∑ k : Fin 128, X (ix2 (i 0) k) * Wt (ix2 k (i 1))) + b (i 1)

theorem affine_apply {R : Nat} (X : (⟨2, ![R, 128]⟩ : Shape).Idx → EReal) (Wt : (⟨2, ![128, 128]⟩ : Shape).Idx → EReal)
    (b : Fin 128 → EReal) (r : Fin R) (j : Fin 128) :
    affine X Wt b (ix2 r j) = (∑ k : Fin 128, X (ix2 r k) * Wt (ix2 k j)) + b j := rfl

/-- Every entry multiplied by the number two (as the single-precision word `0x40000000` denotes it). -/
def doubled {R : Nat} (X : (⟨2, ![R, 128]⟩ : Shape).Idx → EReal) : (⟨2, ![R, 128]⟩ : Shape).Idx → EReal :=
  fun i => Ideal.ofBits .f32 0x40000000#32 * X i

/-- The score of row `r` of `Y`: the logistic function of the row's product with the column `ws`, plus `s`. -/
def scoreAt {R : Nat} (Y : (⟨2, ![R, 128]⟩ : Shape).Idx → EReal) (ws : (⟨2, ![128, 1]⟩ : Shape).Idx → EReal)
    (s : EReal) (r : Fin R) : EReal :=
  Ideal.logistic ((∑ j : Fin 128, Y (ix2 r j) * ws (ix2 j (0 : Fin 1))) + s)

/-- The scores as a column `[R, 1]`. -/
def scoreCol {R : Nat} (Y : (⟨2, ![R, 128]⟩ : Shape).Idx → EReal) (ws : (⟨2, ![128, 1]⟩ : Shape).Idx → EReal)
    (s : EReal) : (⟨2, ![R, 1]⟩ : Shape).Idx → EReal :=
  fun i => scoreAt Y ws s (i 0)

/-- The scores as a vector `[R]`. -/
def scoreVec {R : Nat} (Y : (⟨2, ![R, 128]⟩ : Shape).Idx → EReal) (ws : (⟨2, ![128, 1]⟩ : Shape).Idx → EReal)
    (s : EReal) : (⟨1, ![R]⟩ : Shape).Idx → EReal :=
  fun i => scoreAt Y ws s (i 0)

end Cert.EdgePool

end
-- ==== Proof.EdgeRegion.lean ====
/-
  The first launch: the edge kernel over 200 blocks of 8000 edges.  For ANY contents `V` of the core's buffers when the
  launch is entered, its two result arrays end as functions of the five operand arrays as entered: the transformed
  features are the linear layer of the merged features, and the score column is the logistic score of the transformed
  features.

  Point `t` of the grid reads rows `8000·t … 8000·t + 7999` of the merged features and the whole of the four small
  operands, and writes rows `8000·t … 8000·t + 7999` of both results; the 200 blocks tile the arrays.
-/
import proofs.«103086_j31825707664029_1_alg».proof.Proof.Gen.KernelIdeal.Frame
import proofs.«103086_j31825707664029_1_alg».proof.Proof.Payload
import proofs.«103086_j31825707664029_1_alg».proof.Proof.Spec
import Idealize.ShloMosaic.Lib.Pipeline.Value

set_option maxRecDepth 16384

noncomputable section

open scoped BigOperators

namespace Cert.KernelIdeal.Edge

open Cert.KernelIdeal Cert.KernelIdeal.Gen Cert.EdgePool
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the merged features and the two results move with the point
    along the rows, the four small operands stay at their one block. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks, read where they sit in their arrays -/

/-- Row `p` of point `t`'s block of merged features is row `8000·t + p` of the array. -/
theorem blk_merged (c : Dev nD) (t : Fin cfg0.N) (p : Fin 8000) (k : Fin 128) (r : Fin 1600000)
    (hr : r.val = t.val * 8000 + p.val) :
    (iblk0 V c 0 t : Vec Ideal S8000x128 .f32) (ix2 p k) = (V c main_v18 : S1600000x128.Idx → EReal) (ix2 r k) := by
  obtain ⟨e0, e1, -⟩ := idx t
  show (V c main_v18 : S1600000x128.Idx → EReal) (((cfg0.win 0).blk t).view.emb (ix2 p k)) = _
  refine congrArg _ (funext fun a => Fin.ext ?_)
  match a with
  | ⟨0, _⟩ => show win0_0.index t (0 : Fin 2) * 8000 + 1 * p.val = r.val; omega
  | ⟨1, _⟩ => show win0_0.index t (1 : Fin 2) * 128 + 1 * k.val = k.val; omega

/-- The transposed weight matrix is its one block. -/
theorem blk_wt (c : Dev nD) (t : Fin cfg0.N) (k q : Fin 128) :
    (iblk0 V c 1 t : Vec Ideal S128x128 .f32) (ix2 k q) = (V c main_v19 : S128x128.Idx → EReal) (ix2 k q) := by
  obtain ⟨-, -, e0, e1, -⟩ := idx t
  show (V c main_v19 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row is its one block. -/
theorem blk_bias (c : Dev nD) (t : Fin cfg0.N) (q : Fin 128) :
    (iblk0 V c 2 t : Vec Ideal S1x128 .f32) (ix2 (0 : Fin 1) q) = (V c main_v20 : S1x128.Idx → EReal) (ix2 (0 : Fin 1) q) := by
  obtain ⟨-, -, -, -, e0, e1, -⟩ := idx t
  show (V c main_v20 : S1x128.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The score weights' column is its one block. -/
theorem blk_ws (c : Dev nD) (t : Fin cfg0.N) (j : Fin 128) :
    (iblk0 V c 3 t : Vec Ideal S128x1 .f32) (ix2 j (0 : Fin 1)) = (V c main_v21 : S128x1.Idx → EReal) (ix2 j (0 : Fin 1)) := by
  obtain ⟨-, -, -, -, -, -, e0, e1, -⟩ := idx t
  show (V c main_v21 : S128x1.Idx → EReal) (((cfg0.win 3).blk t).view.emb (ix2 j (0 : Fin 1))) = _
  refine congrArg _ (funext fun a => Fin.ext ?_)
  match a with
  | ⟨0, _⟩ => show win0_3.index t (0 : Fin 2) * 128 + 1 * j.val = j.val; omega
  | ⟨1, _⟩ => show win0_3.index t (1 : Fin 2) * 1 + 1 * 0 = 0; omega

/-- The score bias is its one block. -/
theorem blk_bs (c : Dev nD) (t : Fin cfg0.N) :
    (iblk0 V c 4 t : Vec Ideal S1x1 .f32) (ix2 (0 : Fin 1) (0 : Fin 1)) = (V c main_v22 : S1x1.Idx → EReal) (ix2 (0 : Fin 1) (0 : Fin 1)) := by
  obtain ⟨-, -, -, -, -, -, -, -, e0, e1, -⟩ := idx t
  show (V c main_v22 : S1x1.Idx → EReal) (((cfg0.win 4).blk t).view.emb (ix2 (0 : Fin 1) (0 : Fin 1))) = _
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## The two results as whole-array functions of the operands as entered -/

/-- The transformed edge features. -/
abbrev feat (c : Dev nD) : S1600000x128.Idx → EReal :=
  affine (V c main_v18) (V c main_v19) (fun q => (V c main_v20 : S1x128.Idx → EReal) (ix2 (0 : Fin 1) q))

/-- The edge scores, as a column. -/
abbrev score (c : Dev nD) : S1600000x1.Idx → EReal :=
  scoreCol (feat V c) (V c main_v21) ((V c main_v22 : S1x1.Idx → EReal) (ix2 (0 : Fin 1) (0 : Fin 1)))

/-- The body's first store at `(p, q)` of point `t` is the transformed features at row `8000·t + p`. -/
theorem pay_feat (c : Dev nD) (t : Fin cfg0.N) (p : Fin 8000) (q : Fin 128) (r : Fin 1600000)
    (hr : r.val = t.val * 8000 + p.val) :
    k0_pay1 (F := Ideal) (iblk0 V c 0 t) (iblk0 V c 1 t) (iblk0 V c 2 t) (ix2 p q) = feat V c (ix2 r q) :=
  (Payload.feat_apply (iblk0 V c 0 t) (iblk0 V c 1 t) (iblk0 V c 2 t) p q).trans
    (congrArg₂ (· + ·) (Finset.sum_congr rfl fun k _ => congrArg₂ (· * ·) (blk_merged V c t p k r hr) (blk_wt V c t k q))
      (blk_bias V c t q))

/-- What point `t` writes back to the transformed features is block `t` of `feat`. -/
theorem flushed_feat (c : Dev nD) (t : Fin cfg0.N) :
    (dat0 V c).flushed 5 t = ((cfg0.win 5).blk t).view.read (Elt Ideal) (feat V c) := by
  show (cfg0.win 5).cut (grid0.coords t) ((dat0 V c).after 5 t) = _
  rw [after0_5]
  unfold out0_5
  rw [View.canon_unit_zero hz]
  simp only [View.ld_unit_zero (S := S8000x128) hz, View.ld_unit_zero (S := S128x128) hz, View.ld_unit_zero (S := S1x128) hz]
  funext j
  have hN : cfg0.N = 200 := N_0
  have ht := t.isLt
  have hj0 : (j 0).val < 8000 := (j 0).isLt
  have hj1 : (j 1).val < 128 := (j 1).isLt
  obtain ⟨-, -, -, -, -, -, -, -, -, -, e0, e1, -⟩ := idx t
  have hemb : ((cfg0.win 5).blk t).view.emb j
      = ix2 (⟨t.val * 8000 + (j 0).val, by omega⟩ : Fin 1600000) (⟨(j 1).val, hj1⟩ : Fin 128) :=
    funext fun a => Fin.ext (by
      match a with
      | ⟨0, _⟩ => show win0_5.index t (0 : Fin 2) * 8000 + 1 * (j 0).val = t.val * 8000 + (j 0).val; omega
      | ⟨1, _⟩ => show win0_5.index t (1 : Fin 2) * 128 + 1 * (j 1).val = (j 1).val; omega)
  show k0_pay1 (F := Ideal) (iblk0 V c 0 t) (iblk0 V c 1 t) (iblk0 V c 2 t) j = feat V c (((cfg0.win 5).blk t).view.emb j)
  rw [hemb]
  exact pay_feat V c t ⟨(j 0).val, hj0⟩ ⟨(j 1).val, hj1⟩ _ rfl

/-- The body's second store at `(p, 0)` of point `t` is the score of row `8000·t + p`. -/
theorem pay_score (c : Dev nD) (t : Fin cfg0.N) (p : Fin 8000) (u : Fin 1) (r : Fin 1600000)
    (hr : r.val = t.val * 8000 + p.val) :
    k0_pay2 (F := Ideal) (iblk0 V c 0 t) (iblk0 V c 1 t) (iblk0 V c 2 t) (iblk0 V c 3 t) (iblk0 V c 4 t) (ix2 p u)
      = scoreAt (feat V c) (V c main_v21) ((V c main_v22 : S1x1.Idx → EReal) (ix2 (0 : Fin 1) (0 : Fin 1))) r :=
  (Payload.score_apply (iblk0 V c 0 t) (iblk0 V c 1 t) (iblk0 V c 2 t) (iblk0 V c 3 t) (iblk0 V c 4 t) p u).trans
    (congrArg Ideal.logistic (congrArg₂ (· + ·)
      (Finset.sum_congr rfl fun j _ => congrArg₂ (· * ·) (pay_feat V c t p j r hr) (blk_ws V c t j))
      (blk_bs V c t)))

/-- What point `t` writes back to the score column is block `t` of `score`. -/
theorem flushed_score (c : Dev nD) (t : Fin cfg0.N) :
    (dat0 V c).flushed 6 t = ((cfg0.win 6).blk t).view.read (Elt Ideal) (score V c) := by
  show (cfg0.win 6).cut (grid0.coords t) ((dat0 V c).after 6 t) = _
  rw [after0_6]
  unfold out0_6
  rw [View.canon_unit_zero hz]
  simp only [View.ld_unit_zero (S := S8000x128) hz, View.ld_unit_zero (S := S128x128) hz, View.ld_unit_zero (S := S1x128) hz,
    View.ld_unit_zero (S := S128x1) hz, View.ld_unit_zero (S := S1x1) hz]
  funext j
  have hN : cfg0.N = 200 := N_0
  have ht := t.isLt
  have hj0 : (j 0).val < 8000 := (j 0).isLt
  have hj1 : (j 1).val < 1 := (j 1).isLt
  obtain ⟨-, -, -, -, -, -, -, -, -, -, -, -, e0, e1⟩ := idx t
  have hemb : ((cfg0.win 6).blk t).view.emb j
      = ix2 (⟨t.val * 8000 + (j 0).val, by omega⟩ : Fin 1600000) (⟨(j 1).val, hj1⟩ : Fin 1) :=
    funext fun a => Fin.ext (by
      match a with
      | ⟨0, _⟩ => show win0_6.index t (0 : Fin 2) * 8000 + 1 * (j 0).val = t.val * 8000 + (j 0).val; omega
      | ⟨1, _⟩ => show win0_6.index t (1 : Fin 2) * 1 + 1 * (j 1).val = (j 1).val; omega)
  show k0_pay2 (F := Ideal) (iblk0 V c 0 t) (iblk0 V c 1 t) (iblk0 V c 2 t) (iblk0 V c 3 t) (iblk0 V c 4 t) j
    = score V c (((cfg0.win 6).blk t).view.emb j)
  rw [hemb]
  exact pay_score V c t ⟨(j 0).val, hj0⟩ ⟨(j 1).val, hj1⟩ _ rfl

/-! ## The blocks tile the arrays -/

/-- An index of the transformed features is in point `t`'s block iff each coordinate is in the block's range. -/
theorem mem_blk_feat (t : Fin cfg0.N) (i : S1600000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v23_0).slice (win0_5.rect t)).set ↔ _
  rw [View.set_slice_whole, Rect.mem_set_unit]
  exact Iff.rfl

/-- Row `r` lies in the block of point `r / 8000`. -/
theorem cover_feat (i : S1600000x128.Idx) :
    ∃ t : Fin cfg0.N, (cfg0.win 5).flush t = true ∧ i ∈ ((cfg0.win 5).blk t).view.set := by
  have hN : cfg0.N = 200 := N_0
  have hi0 : (i 0).val < 1600000 := (i 0).isLt
  have hi1 : (i 1).val < 128 := (i 1).isLt
  obtain ⟨t, htv⟩ : ∃ t : Fin cfg0.N, t.val = (i 0).val / 8000 := ⟨⟨(i 0).val / 8000, by omega⟩, rfl⟩
  obtain ⟨-, -, -, -, -, -, -, -, -, -, e0, e1, -⟩ := idx t
  refine ⟨t, flush0_5 t, ?_⟩
  rw [mem_blk_feat]
  intro a
  match a with
  | ⟨0, _⟩ =>
    show win0_5.index t (0 : Fin 2) * 8000 ≤ (i 0).val ∧ (i 0).val < win0_5.index t (0 : Fin 2) * 8000 + 8000
    omega
  | ⟨1, _⟩ =>
    show win0_5.index t (1 : Fin 2) * 128 ≤ (i 1).val ∧ (i 1).val < win0_5.index t (1 : Fin 2) * 128 + 128
    omega

/-- An index of the score column is in point `t`'s block iff each coordinate is in the block's range. -/
theorem mem_blk_score (t : Fin cfg0.N) (i : S1600000x1.Idx) :
    i ∈ ((cfg0.win 6).blk t).view.set ↔ ∀ a : Fin 2, win0_6.index t a * S8000x1.size a ≤ (i a).val
      ∧ (i a).val < win0_6.index t a * S8000x1.size a + S8000x1.size a := by
  show i ∈ ((View.whole main_v23_1).slice (win0_6.rect t)).set ↔ _
  rw [View.set_slice_whole, Rect.mem_set_unit]
  exact Iff.rfl

theorem cover_score (i : S1600000x1.Idx) :
    ∃ t : Fin cfg0.N, (cfg0.win 6).flush t = true ∧ i ∈ ((cfg0.win 6).blk t).view.set := by
  have hN : cfg0.N = 200 := N_0
  have hi0 : (i 0).val < 1600000 := (i 0).isLt
  have hi1 : (i 1).val < 1 := (i 1).isLt
  obtain ⟨t, htv⟩ : ∃ t : Fin cfg0.N, t.val = (i 0).val / 8000 := ⟨⟨(i 0).val / 8000, by omega⟩, rfl⟩
  obtain ⟨-, -, -, -, -, -, -, -, -, -, -, -, e0, e1⟩ := idx t
  refine ⟨t, flush0_6 t, ?_⟩
  rw [mem_blk_score]
  intro a
  match a with
  | ⟨0, _⟩ =>
    show win0_6.index t (0 : Fin 2) * 8000 ≤ (i 0).val ∧ (i 0).val < win0_6.index t (0 : Fin 2) * 8000 + 8000
    omega
  | ⟨1, _⟩ =>
    show win0_6.index t (1 : Fin 2) * 1 ≤ (i 1).val ∧ (i 1).val < win0_6.index t (1 : Fin 2) * 1 + 1
    omega

/-! ## The arrays after the launch -/

/-- The transformed-features array ends as the linear layer of the merged features. -/
theorem final_feat (c : Dev nD) : (dat0 V c).arrAt 5 cfg0.N = feat V c :=
  (dat0 V c).arrAt_eq_of_cover 5 (feat V c) (fun t _ => flushed_feat V c t) cover_feat

/-- The score column ends as the logistic score of the transformed features. -/
theorem final_score (c : Dev nD) : (dat0 V c).arrAt 6 cfg0.N = score V c :=
  (dat0 V c).arrAt_eq_of_cover 6 (score V c) (fun t _ => flushed_score V c t) cover_score

end Cert.KernelIdeal.Edge

end
-- ==== Proof.NodeRegion.lean ====
/-
  The second launch: the node kernel over 10 blocks of 5000 nodes.  For ANY contents `V` of the core's buffers when the
  launch is entered, its result array ends as the linear layer of the doubled node features as entered.

  Point `t` of the grid reads rows `5000·t … 5000·t + 4999` of the node features and the whole of the weight matrix and
  the bias row, and writes the same rows of the result; the 10 blocks tile the array.
-/
import proofs.«103086_j31825707664029_1_alg».proof.Proof.Gen.KernelIdeal.Frame
import proofs.«103086_j31825707664029_1_alg».proof.Proof.Payload
import proofs.«103086_j31825707664029_1_alg».proof.Proof.Spec
import Idealize.ShloMosaic.Lib.Pipeline.Value

set_option maxRecDepth 16384

noncomputable section

open scoped BigOperators

namespace Cert.KernelIdeal.Node

open Cert.KernelIdeal Cert.KernelIdeal.Gen Cert.EdgePool
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the node features and the result move with the point along the
    rows, the weight matrix and the bias row stay at their one block. -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks, read where they sit in their arrays -/

/-- Row `p` of point `t`'s block of node features is row `5000·t + p` of the array. -/
theorem blk_nodes (c : Dev nD) (t : Fin cfg1.N) (p : Fin 5000) (k : Fin 128) (r : Fin 50000)
    (hr : r.val = t.val * 5000 + p.val) :
    (iblk1 V c 0 t : Vec Ideal S5000x128 .f32) (ix2 p k) = (V c main_arg0 : S50000x128.Idx → EReal) (ix2 r k) := by
  obtain ⟨e0, e1, -⟩ := idx t
  show (V c main_arg0 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The transposed weight matrix is its one block. -/
theorem blk_wt (c : Dev nD) (t : Fin cfg1.N) (k q : Fin 128) :
    (iblk1 V c 1 t : Vec Ideal S128x128 .f32) (ix2 k q) = (V c main_v19 : S128x128.Idx → EReal) (ix2 k q) := by
  obtain ⟨-, -, e0, e1, -⟩ := idx t
  show (V c main_v19 : S128x128.Idx → EReal) (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias row is its one block. -/
theorem blk_bias (c : Dev nD) (t : Fin cfg1.N) (q : Fin 128) :
    (iblk1 V c 2 t : Vec Ideal S1x128 .f32) (ix2 (0 : Fin 1) q) = (V c main_v20 : S1x128.Idx → EReal) (ix2 (0 : Fin 1) q) := by
  obtain ⟨-, -, -, -, e0, e1, -⟩ := idx t
  show (V c main_v20 : S1x128.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-! ## The result as a whole-array function of the operands as entered -/

/-- The transformed doubled node features. -/
abbrev selfFeat (c : Dev nD) : S50000x128.Idx → EReal :=
  affine (doubled (V c main_arg0)) (V c main_v19) (fun q => (V c main_v20 : S1x128.Idx → EReal) (ix2 (0 : Fin 1) q))

/-- The body's store at `(p, q)` of point `t` is the result at row `5000·t + p`. -/
theorem pay_self (c : Dev nD) (t : Fin cfg1.N) (p : Fin 5000) (q : Fin 128) (r : Fin 50000)
    (hr : r.val = t.val * 5000 + p.val) :
    k1_pay1 (F := Ideal) (iblk1 V c 0 t) (iblk1 V c 1 t) (iblk1 V c 2 t) (ix2 p q) = selfFeat V c (ix2 r q) :=
  (Payload.self_apply (iblk1 V c 0 t) (iblk1 V c 1 t) (iblk1 V c 2 t) p q).trans
    (congrArg₂ (· + ·)
      (Finset.sum_congr rfl fun k _ => congrArg₂ (· * ·)
        (congrArg (Ideal.ofBits .f32 0x40000000#32 * ·) (blk_nodes V c t p k r hr)) (blk_wt V c t k q))
      (blk_bias V c t q))

/-- What point `t` writes back is block `t` of `selfFeat`. -/
theorem flushed_self (c : Dev nD) (t : Fin cfg1.N) :
    (dat1 V c).flushed 3 t = ((cfg1.win 3).blk t).view.read (Elt Ideal) (selfFeat V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q :=
    ⟨⟨(j 0).val, (j 0).isLt⟩, ⟨(j 1).val, (j 1).isLt⟩, funext fun a => by match a with | ⟨0, _⟩ => rfl | ⟨1, _⟩ => rfl⟩
  have hN : cfg1.N = 10 := N_1
  have ht := t.isLt
  have hp := p.isLt
  obtain ⟨-, -, -, -, -, -, e0, e1⟩ := idx t
  obtain ⟨r, hr⟩ : ∃ r : Fin 50000, r.val = t.val * 5000 + p.val := ⟨⟨t.val * 5000 + p.val, by omega⟩, rfl⟩
  have hemb : ((cfg1.win 3).blk t).view.emb (ix2 p q) = ix2 r q :=
    funext fun a => Fin.ext (by
      match a with
      | ⟨0, _⟩ => show win1_3.index t (0 : Fin 2) * 5000 + 1 * p.val = r.val; omega
      | ⟨1, _⟩ => show win1_3.index t (1 : Fin 2) * 128 + 1 * q.val = q.val; omega)
  show k1_pay1 (F := Ideal) (iblk1 V c 0 t) (iblk1 V c 1 t) (iblk1 V c 2 t) (ix2 p q)
    = selfFeat V c (((cfg1.win 3).blk t).view.emb (ix2 p q))
  rw [hemb]
  exact pay_self V c t p q r hr

/-! ## The blocks tile the array -/

/-- An index of the result is in point `t`'s block iff each coordinate is in the block's range. -/
theorem mem_blk_self (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v25).slice (win1_3.rect t)).set ↔ _
  rw [View.set_slice_whole, Rect.mem_set_unit]
  exact Iff.rfl

/-- Row `r` lies in the block of point `r / 5000`. -/
theorem cover_self (i : S50000x128.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  obtain ⟨t, htv⟩ : ∃ t : Fin cfg1.N, t.val = (i 0).val / 5000 := ⟨⟨(i 0).val / 5000, by omega⟩, rfl⟩
  obtain ⟨-, -, -, -, -, -, e0, e1⟩ := idx t
  refine ⟨t, flush1_3 t, ?_⟩
  rw [mem_blk_self]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The result array ends as the linear layer of the doubled node features. -/
theorem final_self (c : Dev nD) : (dat1 V c).arrAt 3 cfg1.N = selfFeat V c :=
  (dat1 V c).arrAt_eq_of_cover 3 (selfFeat V c) (fun t _ => flushed_self V c t) cover_self

end Cert.KernelIdeal.Node

end
-- ==== Proof.KernelValue.lean ====
/-
  The kernel program's three results after its run, as functions of its arguments.

  The buffers' contents are followed from the end of the program back to its start.  The transformed edge features are
  written by the first launch and touched by nothing after it; the score vector is the one host operation after the first
  launch, a cast of the score column `[E, 1]` to `[E]`; the transformed node features are written by the second launch,
  whose operands (the node features, the transposed weights, the bias row) hold at its entry what they held at the
  first launch's entry.  At the first launch's entry the small operands are layout changes of the arguments: the weight
  matrices transposed, the two biases with a unit axis added.
-/
import proofs.«103086_j31825707664029_1_alg».proof.Proof.KernelRun
import proofs.«103086_j31825707664029_1_alg».proof.Proof.EdgeRegion
import proofs.«103086_j31825707664029_1_alg».proof.Proof.NodeRegion
import Idealize.ShloMosaic.Lib.ValueLayout
import Idealize.ShloMosaic.Lib.StableHlo.Run

set_option maxRecDepth 16384

noncomputable section

open scoped BigOperators

namespace Cert.KernelIdeal.Result

open Cert.KernelIdeal Cert.KernelIdeal.Gen Cert.EdgePool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## From the last boundary back to the launches -/

/-- The one host operation between the launches writes the score vector only. -/
theorem W3_of_ne (c : Dev nD) (b : Ref sig .tc) (hb : main_v24 ≠ b) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb.symm))

/-- The transformed edge features at the end are what the first launch left. -/
theorem W4_feat (c : Dev nD) :
    W4 m ρ c (Proc.devRef .tc main_v23_0) = Edge.feat (V1 m ρ) c :=
  calc W4 m ρ c (Proc.devRef .tc main_v23_0)
    _ = W3 m ρ c (Proc.devRef .tc main_v23_0) := W4_of_ne m ρ c main_v23_0 (by decide)
    _ = W2 m ρ c (Proc.devRef .tc main_v23_0) := W3_of_ne m ρ c main_v23_0 (by decide)
    _ = (dat0 (V1 m ρ) c).arrAt 5 cfg0.N := W2_arr m ρ c 5
    _ = Edge.feat (V1 m ρ) c := Edge.final_feat (V1 m ρ) c

/-- The score vector at the end is the score column the first launch left, cast to a vector. -/
theorem W4_score (c : Dev nD) :
    W4 m ρ c (Proc.devRef .tc main_v24)
      = shapeCast S1600000 (Edge.score (V1 m ρ) c) shapeCasts_S1600000x1_S1600000 :=
  calc W4 m ρ c (Proc.devRef .tc main_v24)
    _ = W3 m ρ c (Proc.devRef .tc main_v24) := W4_of_ne m ρ c main_v24 (by decide)
    _ = shapeCast S1600000 (W2 m ρ c (Proc.devRef .tc main_v23_1)) shapeCasts_S1600000x1_S1600000 := by
        show StableHlo.after hostOps1 (W2 m ρ c) (Proc.devRef .tc main_v24) = _
        after_results <;> rfl
    _ = shapeCast S1600000 (Edge.score (V1 m ρ) c) shapeCasts_S1600000x1_S1600000 :=
        congrArg (fun x => shapeCast S1600000 x shapeCasts_S1600000x1_S1600000)
          ((W2_arr m ρ c 6).trans (Edge.final_score (V1 m ρ) c))

/-- The second launch's operands hold at its entry what they held at the first launch's entry. -/
theorem V3_nodes (c : Dev nD) : V3 m ρ c main_arg0 = V1 m ρ c main_arg0 :=
  (W3_of_ne m ρ c main_arg0 (by decide)).trans (W2_of_ne m ρ c main_arg0 (by decide))
theorem V3_wt (c : Dev nD) : V3 m ρ c main_v19 = V1 m ρ c main_v19 :=
  (W3_of_ne m ρ c main_v19 (by decide)).trans
    ((W2_arr m ρ c 1).trans (((dat0 (V1 m ρ) c).arrAt_in 1 rfl _).trans (A_eq0 (V1 m ρ) c 1)))
theorem V3_bias (c : Dev nD) : V3 m ρ c main_v20 = V1 m ρ c main_v20 :=
  (W3_of_ne m ρ c main_v20 (by decide)).trans
    ((W2_arr m ρ c 2).trans (((dat0 (V1 m ρ) c).arrAt_in 2 rfl _).trans (A_eq0 (V1 m ρ) c 2)))

/-- The transformed node features at the end are what the second launch left, over the operands as the first launch
    found them. -/
theorem W4_self (c : Dev nD) :
    W4 m ρ c (Proc.devRef .tc main_v25) = Node.selfFeat (V1 m ρ) c :=
  calc W4 m ρ c (Proc.devRef .tc main_v25)
    _ = (dat1 (V3 m ρ) c).arrAt 3 cfg1.N := W4_arr m ρ c 3
    _ = Node.selfFeat (V3 m ρ) c := Node.final_self (V3 m ρ) c
    _ = Node.selfFeat (V1 m ρ) c := by
        show affine (doubled (V3 m ρ c main_arg0)) (V3 m ρ c main_v19) (fun q => (V3 m ρ c main_v20 : S1x128.Idx → EReal) (ix2 (0 : Fin 1) q))
          = affine (doubled (V1 m ρ c main_arg0)) (V1 m ρ c main_v19) (fun q => (V1 m ρ c main_v20 : S1x128.Idx → EReal) (ix2 (0 : Fin 1) q))
        rw [V3_nodes, V3_wt, V3_bias]

/-! ## The first launch's operands as the host operations before it leave them -/

/-- The node features are the argument. -/
theorem V1_nodes (c : Dev nD) : V1 m ρ c main_arg0 = m ((c : Thread nD τ).loc main_arg0) := by
  show StableHlo.after hostOps0 (W0 m ρ c) (Proc.devRef .tc main_arg0) = _
  after_results <;> rfl

/-- The weight matrix, transposed. -/
theorem V1_wt (c : Dev nD) :
    V1 m ρ c main_v19 = transpose S128x128 [1, 0] (m ((c : Thread nD τ).loc main_arg3)) transposes_S128x128_S128x128_1_0 := by
  show StableHlo.after hostOps0 (W0 m ρ c) (Proc.devRef .tc main_v19) = _
  after_results <;> rfl

/-- The bias as a row. -/
theorem V1_bias (c : Dev nD) :
    V1 m ρ c main_v20 = shapeCast S1x128 (m ((c : Thread nD τ).loc main_arg4)) shapeCasts_S128_S1x128 := by
  show StableHlo.after hostOps0 (W0 m ρ c) (Proc.devRef .tc main_v20) = _
  after_results <;> rfl

/-- The score weights, transposed to a column. -/
theorem V1_ws (c : Dev nD) :
    V1 m ρ c main_v21 = transpose S128x1 [1, 0] (m ((c : Thread nD τ).loc main_arg5)) transposes_S1x128_S128x1_1_0 := by
  show StableHlo.after hostOps0 (W0 m ρ c) (Proc.devRef .tc main_v21) = _
  after_results <;> rfl

/-- The score bias as a `[1, 1]` array. -/
theorem V1_bs (c : Dev nD) :
    V1 m ρ c main_v22 = shapeCast S1x1 (m ((c : Thread nD τ).loc main_arg6)) shapeCasts_S1_S1x1 := by
  show StableHlo.after hostOps0 (W0 m ρ c) (Proc.devRef .tc main_v22) = _
  after_results <;> rfl

/-- The bias row read at a column is the bias vector there. -/
theorem bias_apply (c : Dev nD) (q : Fin 128) :
    (V1 m ρ c main_v20 : S1x128.Idx → EReal) (ix2 (0 : Fin 1) q) = (m ((c : Thread nD τ).loc main_arg4) : S128.Idx → EReal) (ix1 q) := by
  rw [V1_bias]
  exact shapeCast_a_1a_apply _ _ (0 : Fin 1) q

/-- The `[1, 1]` score bias is the one entry of the argument. -/
theorem bs_apply (c : Dev nD) :
    (V1 m ρ c main_v22 : S1x1.Idx → EReal) (ix2 (0 : Fin 1) (0 : Fin 1)) = (m ((c : Thread nD τ).loc main_arg6) : S1.Idx → EReal) (ix1 (0 : Fin 1)) := by
  rw [V1_bs]
  exact shapeCast_a_1a_apply _ _ (0 : Fin 1) (0 : Fin 1)

end Cert.KernelIdeal.Result

end
-- ==== Proof.KernelFinal.lean ====
/-
  The kernel program's three results stated with the very terms the reference's results are stated with.

  Both programs begin with the same host operations: the two rows of the edge list are made non-negative, the node
  features are gathered at them, and the two gathered matrices are added.  That merged matrix, the transposed weight
  matrix and the transposed score weights are therefore kept as the reference's own stages, of the kernel's arguments.
  The biases are read down to the arguments' entries, since the two programs lay them out differently (a cast here, a
  broadcast there).  The score column cast to a vector reads, at edge `e`, the column at `(e, 0)`.
-/
import proofs.«103086_j31825707664029_1_alg».proof.Proof.KernelValue
import proofs.«103086_j31825707664029_1_alg».proof.Proof.Gen.ReferenceIdeal.Read

set_option maxRecDepth 16384

noncomputable section

open scoped BigOperators

namespace Cert.KernelIdeal.Result

open Cert.KernelIdeal Cert.KernelIdeal.Gen Cert.EdgePool
open Idealize.ShloMosaic Idealize.ShloMosaic.TcCoe Idealize.SL.Sem Idealize.ShloMosaic.ValueIdx

variable (m : (ℓ : Loc nD τ sig) → Buf (Elt Ideal) ℓ) (ρ : Dev nD → PrngReg)

/-- The merged edge features the first launch finds are the reference's merged features of the kernel's arguments. -/
theorem V1_merged (c : Dev nD) :
    V1 m ρ c main_v18 = Cert.ReferenceIdeal.Read.val_main_v18 (F := Ideal)
      (m ((c : Thread nD τ).loc main_arg0)) (m ((c : Thread nD τ).loc main_arg1)) := by
  show StableHlo.after hostOps0 (W0 m ρ c) (Proc.devRef .tc main_v18) = _
  after_results_simp <;> rfl

/-- The transposed weight matrix, as the reference's stage. -/
theorem V1_wt' (c : Dev nD) :
    V1 m ρ c main_v19 = Cert.ReferenceIdeal.Read.val_main_v19 (F := Ideal) (m ((c : Thread nD τ).loc main_arg3)) :=
  V1_wt m ρ c

/-- The transposed score weights, as the reference's stage. -/
theorem V1_ws' (c : Dev nD) :
    V1 m ρ c main_v21 = Cert.ReferenceIdeal.Read.val_main_v31 (F := Ideal) (m ((c : Thread nD τ).loc main_arg5)) :=
  V1_ws m ρ c

/-- The transformed edge features, of the arguments. -/
abbrev featOf (c : Dev nD) : S1600000x128.Idx → EReal :=
  affine (Cert.ReferenceIdeal.Read.val_main_v18 (F := Ideal) (m ((c : Thread nD τ).loc main_arg0)) (m ((c : Thread nD τ).loc main_arg1)))
    (Cert.ReferenceIdeal.Read.val_main_v19 (F := Ideal) (m ((c : Thread nD τ).loc main_arg3)))
    (fun q => (m ((c : Thread nD τ).loc main_arg4) : S128.Idx → EReal) (ix1 q))

theorem feat_eq (c : Dev nD) : Edge.feat (V1 m ρ) c = featOf m c := by
  show affine (V1 m ρ c main_v18) (V1 m ρ c main_v19) (fun q => (V1 m ρ c main_v20 : S1x128.Idx → EReal) (ix2 (0 : Fin 1) q)) = _
  rw [V1_merged, V1_wt']
  exact congrArg (affine _ _) (funext fun q => bias_apply m ρ c q)

/-- The transformed edge features at the end of the run. -/
theorem feat_final (c : Dev nD) : W4 m ρ c (Proc.devRef .tc main_v23_0) = featOf m c :=
  (W4_feat m ρ c).trans (feat_eq m ρ c)

/-- The transformed node features at the end of the run. -/
theorem self_final (c : Dev nD) : W4 m ρ c (Proc.devRef .tc main_v25)
    = affine (doubled (m ((c : Thread nD τ).loc main_arg0)))
        (Cert.ReferenceIdeal.Read.val_main_v19 (F := Ideal) (m ((c : Thread nD τ).loc main_arg3)))
        (fun q => (m ((c : Thread nD τ).loc main_arg4) : S128.Idx → EReal) (ix1 q)) := by
  rw [W4_self]
  show affine (doubled (V1 m ρ c main_arg0)) (V1 m ρ c main_v19) (fun q => (V1 m ρ c main_v20 : S1x128.Idx → EReal) (ix2 (0 : Fin 1) q)) = _
  rw [V1_nodes, V1_wt']
  exact congrArg (affine _ _) (funext fun q => bias_apply m ρ c q)

/-- A column `[E, 1]` cast to a vector `[E]` reads, at `e`, the column at `(e, 0)`. -/
theorem column_cast_apply {α : Type} (x : S1600000x1.Idx → α) (e : Fin 1600000) :
    shapeCast S1600000 x shapeCasts_S1600000x1_S1600000 (ix1 e) = x (ix2 e (0 : Fin 1)) :=
  shapeCast_apply x shapeCasts_S1600000x1_S1600000 (ix1 e) (ix2 e (0 : Fin 1)) (by
    rw [Shape.rowMajor_val_two, Shape.rowMajor_val_one]
    show e.val * 1 + 0 = e.val
    omega)

/-- The score vector at the end of the run. -/
theorem score_final (c : Dev nD) : W4 m ρ c (Proc.devRef .tc main_v24)
    = scoreVec (featOf m c) (Cert.ReferenceIdeal.Read.val_main_v31 (F := Ideal) (m ((c : Thread nD τ).loc main_arg5)))
        ((m ((c : Thread nD τ).loc main_arg6) : S1.Idx → EReal) (ix1 (0 : Fin 1))) := by
  rw [W4_score]
  funext i
  obtain ⟨e, rfl⟩ : ∃ e : Fin 1600000, i = ix1 e := ⟨i 0, eq_ix1 i⟩
  rw [column_cast_apply]
  show scoreAt (Edge.feat (V1 m ρ) c) (V1 m ρ c main_v21) ((V1 m ρ c main_v22 : S1x1.Idx → EReal) (ix2 (0 : Fin 1) (0 : Fin 1))) e
    = scoreAt (featOf m c) _ _ e
  rw [feat_eq, V1_ws', bs_apply]

end Cert.KernelIdeal.Result

end
-- ==== Proof.RefValue.lean ====
/-
  The reference program's three results, as the layer's functions of its arguments.

  Read one operation at a time: the host's matrix products are sums over the contracted axis, the bias broadcasts read the
  bias at the column, the constant two is broadcast over the node features, and the score is
  `1 / (1 + exp(-z))` of the affine score `z`, which on the extended reals is the logistic function of `z` (the
  single-precision word `0x3F800000` denotes the number one).
-/
import proofs.«103086_j31825707664029_1_alg».proof.Proof.Gen.ReferenceIdeal.Read
import proofs.«103086_j31825707664029_1_alg».proof.Proof.Spec
import Idealize.ShloMosaic.PureOps.IdealRules

noncomputable section

open scoped BigOperators

namespace Cert.ReferenceIdeal.RefValue

open Cert.ReferenceIdeal Cert.ReferenceIdeal.Read Cert.EdgePool
open Idealize.ShloMosaic Idealize.ShloMosaic.ValueIdx

variable (x0 : (⟨S50000x128, .f32⟩ : BufTy).Contents (Elt Ideal)) (x1 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S1x128, .f32⟩ : BufTy).Contents (Elt Ideal)) (x6 : (⟨S1, .f32⟩ : BufTy).Contents (Elt Ideal))

/-- The word `0x3F800000` denotes one. -/
theorem one_f32 : Ideal.ofBits .f32 0x3F800000#32 = (1 : EReal) := IdealRules.sign_bit.ideal_onePat .f32

/-- The transformed edge features are the linear layer of the merged features. -/
theorem feat_eq : val_main_v23 (F := Ideal) x0 x1 x3 x4
    = affine (val_main_v18 (F := Ideal) x0 x1) (val_main_v19 (F := Ideal) x3) (fun q => x4 (ix1 q)) := by
  funext i
  obtain ⟨r, j, rfl⟩ : ∃ (r : Fin 1600000) (j : Fin 128), i = ix2 r j := ⟨i 0, i 1, eq_ix2 i⟩
  rw [val_main_v23_apply, val_main_v20_apply, val_main_v22_apply, val_main_v21_apply, affine_apply]
  have el : ∀ k : Fin 128, lidx_main_v20 (ix2 r j) k = ix2 r k := fun k =>
    funext fun a => by match a with | ⟨0, _⟩ => rfl | ⟨1, _⟩ => rfl
  have er : ∀ k : Fin 128, ridx_main_v20 (ix2 r j) k = ix2 k j := fun k =>
    funext fun a => by match a with | ⟨0, _⟩ => rfl | ⟨1, _⟩ => rfl
  have eb : idx_main_v21 (idx_main_v22 (ix2 r j)) = ix1 j := funext fun a => by match a with | ⟨0, _⟩ => rfl
  simp only [el, er, eb]
  rfl

/-- The transformed node features are the linear layer of the doubled node features. -/
theorem self_eq : val_main_v30 (F := Ideal) x0 x3 x4
    = affine (doubled x0) (val_main_v19 (F := Ideal) x3) (fun q => x4 (ix1 q)) := by
  funext i
  obtain ⟨n, j, rfl⟩ : ∃ (n : Fin 50000) (j : Fin 128), i = ix2 n j := ⟨i 0, i 1, eq_ix2 i⟩
  rw [val_main_v30_apply, val_main_v27_apply, val_main_v29_apply, val_main_v28_apply, affine_apply]
  have el : ∀ k : Fin 128, lidx_main_v27 (ix2 n j) k = ix2 n k := fun k =>
    funext fun a => by match a with | ⟨0, _⟩ => rfl | ⟨1, _⟩ => rfl
  have er : ∀ k : Fin 128, ridx_main_v27 (ix2 n j) k = ix2 k j := fun k =>
    funext fun a => by match a with | ⟨0, _⟩ => rfl | ⟨1, _⟩ => rfl
  have eb : idx_main_v28 (idx_main_v29 (ix2 n j)) = ix1 j := funext fun a => by match a with | ⟨0, _⟩ => rfl
  simp only [el, er, eb, val_main_v25_apply, val_main_v24_apply, val_main_cst_apply]
  rfl

/-- The scores are the logistic scores of the transformed edge features. -/
theorem score_eq : val_main_v42 (F := Ideal) x0 x1 x3 x4 x5 x6
    = scoreVec (val_main_v23 (F := Ideal) x0 x1 x3 x4) (val_main_v31 (F := Ideal) x5) (x6 (ix1 (0 : Fin 1))) := by
  funext i
  obtain ⟨e, rfl⟩ : ∃ e : Fin 1600000, i = ix1 e := ⟨i 0, eq_ix1 i⟩
  rw [val_main_v42_apply, val_main_v41_apply, val_main_cst_4_apply, val_main_v40_apply, val_main_v39_apply,
    val_main_cst_3_apply, val_main_v38_apply, val_main_v37_apply, val_main_v36_apply, val_main_v35_apply,
    val_main_v32_apply, val_main_v34_apply, val_main_v33_apply]
  have el : ∀ k : Fin 128, lidx_main_v32 (idx_main_v36 (ix1 e)) k = ix2 e k := fun k =>
    funext fun a => Fin.ext (by match a with | ⟨0, _⟩ => exact Nat.div_one _ | ⟨1, _⟩ => rfl)
  have er : ∀ k : Fin 128, ridx_main_v32 (idx_main_v36 (ix1 e)) k = ix2 k (0 : Fin 1) := fun k =>
    funext fun a => by match a with | ⟨0, _⟩ => rfl | ⟨1, _⟩ => rfl
  have eb : idx_main_v33 (idx_main_v34 (idx_main_v36 (ix1 e))) = ix1 (0 : Fin 1) :=
    funext fun a => by match a with | ⟨0, _⟩ => rfl
  simp only [el, er, eb]
  rw [show FloatOps.ofBits (F := Ideal) .f32 0x3F800000#32 = (1 : EReal) from one_f32]
  rfl

end Cert.ReferenceIdeal.RefValue

end
-- ==== Proof.lean ====
/-
  The edge-pooling layer: a Pallas kernel program (a gather of node features at the edges' endpoints on the host, then two
  grid launches) against its jnp reference, equal on the extended reals.

  Both programs compute, from node features `x`, an edge list, a weight matrix `W` with bias `b`, and score weights `ws`
  with bias `s`:
    the transformed edge features  `(x[src] + x[dst]) · Wᵀ + b`,
    the transformed node features  `(2 · x) · Wᵀ + b`,
    the edge scores                `logistic(feat · wsᵀ + s)`.
  The kernel rounds its matrix products' operands to half precision, which is the identity on the extended reals; it
  applies the logistic function as one operation where the reference writes `1 / (1 + exp(-z))`, one function there; and
  it tiles the rows into blocks, which tile the arrays.  No law of arithmetic beyond these identifications is used, so the
  finiteness of the inputs is never opened.

  The frames of the two kernel programs are the generated ones; the reference's frame is its generated run with the results
  dropped; the idealization rewrote nothing.
-/
import proofs.«103086_j31825707664029_1_alg».proof.Defs
import proofs.«103086_j31825707664029_1_alg».proof.Proof.Gen.Kernel
import proofs.«103086_j31825707664029_1_alg».proof.Proof.Gen.Kernel.Skeleton
import proofs.«103086_j31825707664029_1_alg».proof.Proof.Gen.Kernel.Launch
import proofs.«103086_j31825707664029_1_alg».proof.Proof.Gen.Kernel.Points
import proofs.«103086_j31825707664029_1_alg».proof.Proof.Gen.Kernel.Frame
import proofs.«103086_j31825707664029_1_alg».proof.Proof.Gen.KernelIdeal
import proofs.«103086_j31825707664029_1_alg».proof.Proof.Gen.KernelIdeal.Skeleton
import proofs.«103086_j31825707664029_1_alg».proof.Proof.Gen.KernelIdeal.Launch
import proofs.«103086_j31825707664029_1_alg».proof.Proof.Gen.KernelIdeal.Points
import proofs.«103086_j31825707664029_1_alg».proof.Proof.Gen.KernelIdeal.Frame
import proofs.«103086_j31825707664029_1_alg».proof.Proof.Gen.ReferenceIdeal
import proofs.«103086_j31825707664029_1_alg».proof.Proof.Gen.ReferenceIdeal.Run
import proofs.«103086_j31825707664029_1_alg».proof.Proof.Gen.ReferenceIdeal.Read
import proofs.«103086_j31825707664029_1_alg».proof.Proof.Gen.Pre_finite_inputs
import proofs.«103086_j31825707664029_1_alg».proof.Proof.KernelFinal
import proofs.«103086_j31825707664029_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.EdgePool Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- The kernel program's run with its three results named and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v23_0) = Cert.KernelIdeal.Result.featOf m c
        ∧ r.2.mem ((c.tc : Thread Cert.KernelIdeal.nD Cert.KernelIdeal.τ).loc Cert.KernelIdeal.main_v25)
            = affine (doubled (m ((c.tc : Thread Cert.KernelIdeal.nD Cert.KernelIdeal.τ).loc Cert.KernelIdeal.main_arg0)))
                (Cert.ReferenceIdeal.Read.val_main_v19 (F := Ideal) (m ((c.tc : Thread Cert.KernelIdeal.nD Cert.KernelIdeal.τ).loc Cert.KernelIdeal.main_arg3)))
                (fun q => (m ((c.tc : Thread Cert.KernelIdeal.nD Cert.KernelIdeal.τ).loc Cert.KernelIdeal.main_arg4) : Cert.KernelIdeal.S128.Idx → EReal) (ix1 q))
        ∧ r.2.mem ((c.tc : Thread Cert.KernelIdeal.nD Cert.KernelIdeal.τ).loc Cert.KernelIdeal.main_v24)
            = scoreVec (Cert.KernelIdeal.Result.featOf m c)
                (Cert.ReferenceIdeal.Read.val_main_v31 (F := Ideal) (m ((c.tc : Thread Cert.KernelIdeal.nD Cert.KernelIdeal.τ).loc Cert.KernelIdeal.main_arg5)))
                ((m ((c.tc : Thread Cert.KernelIdeal.nD Cert.KernelIdeal.τ).loc Cert.KernelIdeal.main_arg6) : Cert.KernelIdeal.S1.Idx → EReal) (ix1 (0 : Fin 1)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun r h c =>
    ⟨(h c _ (Cert.KernelIdeal.Gen.mem_uc Cert.KernelIdeal.main_v23_0 (by decide))).trans (Cert.KernelIdeal.Result.feat_final m ρ c),
     (h c _ (Cert.KernelIdeal.Gen.mem_uc Cert.KernelIdeal.main_v25 (by decide))).trans (Cert.KernelIdeal.Result.self_final m ρ c),
     (h c _ (Cert.KernelIdeal.Gen.mem_uc Cert.KernelIdeal.main_v24 (by decide))).trans (Cert.KernelIdeal.Result.score_final m ρ c),
     (h c _ (Cert.KernelIdeal.Gen.mem_uc Cert.KernelIdeal.main_arg0 (by decide))).trans (Cert.KernelIdeal.Gen.W4_main_arg0 m ρ c),
     (h c _ (Cert.KernelIdeal.Gen.mem_uc Cert.KernelIdeal.main_arg1 (by decide))).trans (Cert.KernelIdeal.Gen.W4_main_arg1 m ρ c),
     (h c _ (Cert.KernelIdeal.Gen.mem_uc Cert.KernelIdeal.main_arg2 (by decide))).trans (Cert.KernelIdeal.Gen.W4_main_arg2 m ρ c),
     (h c _ (Cert.KernelIdeal.Gen.mem_uc Cert.KernelIdeal.main_arg3 (by decide))).trans (Cert.KernelIdeal.Gen.W4_main_arg3 m ρ c),
     (h c _ (Cert.KernelIdeal.Gen.mem_uc Cert.KernelIdeal.main_arg4 (by decide))).trans (Cert.KernelIdeal.Gen.W4_main_arg4 m ρ c),
     (h c _ (Cert.KernelIdeal.Gen.mem_uc Cert.KernelIdeal.main_arg5 (by decide))).trans (Cert.KernelIdeal.Gen.W4_main_arg5 m ρ c),
     (h c _ (Cert.KernelIdeal.Gen.mem_uc Cert.KernelIdeal.main_arg6 (by decide))).trans (Cert.KernelIdeal.Gen.W4_main_arg6 m ρ c)⟩)
    (Cert.KernelIdeal.Named.run (F := Ideal) m ρ)

/-- From memories agreeing on the arguments the two programs end with the same three results: each is the layer's function
    of the arguments, the kernel's by its two launches read block by block, the reference's by its operations read one at a
    time. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6⟩ := hagree c
  refine ⟨h0.trans ?_, h1.trans ?_, h2.trans ?_, hargs⟩
  · rw [Cert.ReferenceIdeal.Read.val_main_v23_eq, Cert.ReferenceIdeal.RefValue.feat_eq, a0, a1, a3, a4]
  · rw [Cert.ReferenceIdeal.Read.val_main_v30_eq, Cert.ReferenceIdeal.RefValue.self_eq, a0, a3, a4]
  · rw [Cert.ReferenceIdeal.Read.val_main_v42_eq, Cert.ReferenceIdeal.RefValue.score_eq, Cert.ReferenceIdeal.RefValue.feat_eq,
      a0, a1, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
